-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel

variable [Facts]

def fn {F : FTy → Type} [FloatOps F] (main_arg0 : FVec F S131072x256 .f32) (main_arg1 : FVec F S131072x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  main_v8
-- ==== Kernel.lean ====
abbrev S131072x256 : Shape := ⟨2, ![131072, 256]⟩
abbrev S131072x1 : Shape := ⟨2, ![131072, 1]⟩
abbrev S4096x256 : Shape := ⟨2, ![4096, 256]⟩
abbrev S4096x1 : Shape := ⟨2, ![4096, 1]⟩
abbrev S4096 : Shape := ⟨1, ![4096]⟩

abbrev nBuf : Space → Nat
  | .hbm => 3
  | .vmem => 6
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072x1, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x1, .f32⟩
  | .local _ .vmem, ⟨5, _⟩ => ⟨S4096x1, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S131072x256.size a
  hwx0_1 : ∀ i : grid0.Coords, EltTy.bits .f32 = 32 ∨ (Rect.block (s := S131072x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S131072x1.size a
  hwx0_2 : ∀ i : grid0.Coords, EltTy.bits .f32 = 32 ∨ (Rect.block (s := S131072x1) S4096x1.size (cc0_transform_2 i) (hinb0_2 i)).WholeWords (EltTy.packing .f32)

variable [Facts₀]

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x256 : Shape := ⟨2, ![131072, 256]⟩
abbrev S_ : Shape := ⟨0, ![]⟩
abbrev S131072 : Shape := ⟨1, ![131072]⟩
abbrev S131072x1 : Shape := ⟨2, ![131072, 1]⟩

abbrev nBuf : Space → Nat
  | .hbm => 7
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072x256, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S131072x1, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S131072x256_S131072_d1 : S131072x256.ReducesTo [1] S131072
  h_S_ : 0 < S_.numel
  bcast_S131072_S131072x1_0 : S131072.BroadcastsInDim S131072x1 (![0] : Fin 1 → Fin S131072x1.rank)

variable [Facts₀]

class Facts : Prop extends Facts₀ where

variable [Facts]
-- ==== Proof.RowDot.lean ====
/-
  The function both programs compute. For two tables `q`, `d` of 131072 rows and 256 columns, the result is the
  column of 131072 entries whose entry in row `r` is minus the dot product of row `r` of `q` with row `r` of `d`:
  `-(∑ k, q r k * d r k)`, a sum of 256 products in the extended reals. Addition of extended reals is commutative and
  associative, so the sum does not depend on an order of summation and no finiteness of the entries is needed.
-/
import Idealize.ShloMosaic.PureOps.Ideal
import Idealize.ShloMosaic.Lib.ValueIdx

noncomputable section

open scoped BigOperators

namespace Cert.RowDot

open Idealize.ShloMosaic Idealize.ShloMosaic.ValueIdx

/-- Entry `(r, 0)` of the result: minus the sum over the 256 columns `k` of `q r k * d r k`. -/
def negRowDot (q d : (⟨2, ![131072, 256]⟩ : Shape).Idx → EReal) : (⟨2, ![131072, 1]⟩ : Shape).Idx → EReal :=
  fun i => -(∑ k : Fin 256, q (ix2 (n0 := 131072) (i 0) k) * d (ix2 (n0 := 131072) (i 0) k))

/-- The same entry with the row given as a number below 131072. -/
theorem negRowDot_apply (q d : (⟨2, ![131072, 256]⟩ : Shape).Idx → EReal) (r : Fin 131072) (z : Fin 1) :
    negRowDot q d (ix2 r z) = -(∑ k : Fin 256, q (ix2 r k) * d (ix2 r k)) := rfl

end Cert.RowDot

end
-- ==== Proof.KernelRow.lean ====
/-
  One block of the kernel. At a grid point the body loads a block of 4096 rows and 256 columns from each table,
  multiplies them entry by entry, sums each row over its 256 columns, and stores zero minus that sum in a column of
  4096 entries. In the extended reals `0 - s = -s`, so the entry stored for row `r` of the block is
  `-(∑ k, x0 r k * x1 r k)`.
-/
import proofs.«106942_j26946624815701_1_alg».proof.Proof.Gen.KernelIdeal.Value
import proofs.«106942_j26946624815701_1_alg».proof.Proof.RowDot
import Idealize.ShloMosaic.PureOps.Ideal.Laws
import Idealize.ShloMosaic.Lib.ValueIdx

noncomputable section

open scoped BigOperators

namespace Cert.KernelIdeal.RowValue

open Cert.KernelIdeal Cert.KernelIdeal.Gen Cert.KernelIdeal.Value
open Idealize.ShloMosaic Idealize.ShloMosaic.TcCoe Idealize.ShloMosaic.ValueIdx Idealize.SL.Sem

theorem zero_off : (![0, 0] : Fin 2 → Nat) = fun _ => 0 := funext fun a => by fin_cases a <;> rfl

/-- The sum of a 4096 × 256 block over its columns, read at row `r`: the sum over the 256 columns of that row. -/
theorem rowSum (src : FVec Ideal S4096x256 .f32) (h : S4096x256.Reduces [1] S4096) (hφ : FKind.Formats .f32)
    (hacc : (0x00000000#32 : BitVec 32) = FKind.add.neutral .f32 hφ) (r : Fin 4096) :
    multiReduction .add [1] S4096 src 0x00000000#32 h hφ hacc (ix1 r) = ∑ k : Fin 256, src (ix2 r k) := by
  refine (Ideal.multiReduction_add_single src 0x00000000#32 h hφ hacc (ix1 r)).trans ?_
  refine Finset.sum_congr rfl fun k _ => ?_
  exact congrArg src (funext fun a => Fin.ext (by match a with | ⟨0, _⟩ => rfl | ⟨1, _⟩ => rfl))

/-- What the body's operations leave at row `r` of the output block: zero minus the row's sum of products, which is
    minus that sum. -/
theorem E2_row (P0 P1 : Vec Ideal S4096x256 .f32) (r : Fin 4096) (z : Fin 1) :
    E2 (F := Ideal) P0 P1 (ix2 r z) = -(∑ k : Fin 256, P0 (ix2 r k) * P1 (ix2 r k)) := by
  have e : ix2_0 (ix2 r z) = ix1 r := funext fun a => Fin.ext (by match a with | ⟨0, _⟩ => rfl)
  show (Ideal.ofBits .f32 0x00000000#32 : EReal)
      - multiReduction .add [1] S4096 (mulf P0 P1) 0x00000000#32 reduces_S4096x256_S4096 (.inl rfl) rfl (ix2_0 (ix2 r z)) = _
  rw [e]
  refine (congrArg (fun s : EReal => (Ideal.ofBits .f32 0x00000000#32 : EReal) - s)
    (rowSum (mulf P0 P1) reduces_S4096x256_S4096 (.inl rfl) rfl r)).trans ?_
  show (Ideal.ofBits .f32 0x00000000#32 : EReal) - (∑ k : Fin 256, P0 (ix2 r k) * P1 (ix2 r k)) = _
  rw [Ideal.ofBits_zero_f32, zero_sub]

/-- The output block after the body, from the two input blocks, at an index `y` of the block: minus the dot product
    of row `y 0` of the two input blocks. -/
theorem out_at (x0 x1 : Vec Ideal S4096x256 .f32) (y : S4096x1.Idx) :
    out0_2 (F := Ideal) x0 x1 y
      = -(∑ k : Fin 256, x0 (ix2 (n0 := 4096) (y 0) k) * x1 (ix2 (n0 := 4096) (y 0) k)) := by
  obtain ⟨r, z, rfl⟩ : ∃ (r : Fin 4096) (z : Fin 1), y = ix2 r z := ⟨y 0, y 1, eq_ix2 y⟩
  unfold out0_2
  rw [canon2_eq, View.ld_unit_zero (S := S4096x256) zero_off, View.ld_unit_zero (S := S4096x256) zero_off]
  exact E2_row x0 x1 r z

end Cert.KernelIdeal.RowValue

end
-- ==== Proof.KernelArray.lean ====
/-
  From blocks to the whole result. The grid has 32 points; point `t` reads rows `4096 t … 4096 t + 4095` of each
  table (all 256 columns) and writes rows `4096 t … 4096 t + 4095` of the result column. So what point `t` writes
  back is block `t` of the specification's column, the 32 blocks cover all 131072 rows, and the result array ends
  holding the specification's column.
-/
import proofs.«106942_j26946624815701_1_alg».proof.Proof.KernelRow
import Idealize.ShloMosaic.Lib.Pipeline.Value

noncomputable section

open scoped BigOperators

namespace Cert.KernelIdeal.RowValue

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The block index of every window at point `t`: block row `t`, block column `0`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Entry `x` of the first table's block at point `t` is the table's entry in row `4096 t + x 0`, column `x 1`. -/
theorem block0_apply (c : Dev nD) (t : Fin cfg0.N) (x : S4096x256.Idx) (i : S131072x256.Idx)
    (h0 : (i 0).val = t.val * 4096 + (x 0).val) (h1 : (i 1).val = (x 1).val) :
    (iblk m c 0 t : Vec Ideal S4096x256 .f32) x = (V m c main_arg0 : S131072x256.Idx → EReal) i := by
  obtain ⟨e0, e1, -, -, -, -⟩ := block_index t
  show V m c main_arg0 (((cfg0.win 0).blk t).view.emb x) = V m c main_arg0 i
  refine congrArg (V m c main_arg0) (funext fun a => Fin.ext ?_)
  match a with
  | ⟨0, _⟩ => show win0_0.index t (0 : Fin 2) * 4096 + 1 * (x 0).val = (i 0).val; omega
  | ⟨1, _⟩ => show win0_0.index t (1 : Fin 2) * 256 + 1 * (x 1).val = (i 1).val; omega

/-- The same for the second table. -/
theorem block1_apply (c : Dev nD) (t : Fin cfg0.N) (x : S4096x256.Idx) (i : S131072x256.Idx)
    (h0 : (i 0).val = t.val * 4096 + (x 0).val) (h1 : (i 1).val = (x 1).val) :
    (iblk m c 1 t : Vec Ideal S4096x256 .f32) x = (V m c main_arg1 : S131072x256.Idx → EReal) i := by
  obtain ⟨-, -, e0, e1, -, -⟩ := block_index t
  show V m c main_arg1 (((cfg0.win 1).blk t).view.emb x) = V m c main_arg1 i
  refine congrArg (V m c main_arg1) (funext fun a => Fin.ext ?_)
  match a with
  | ⟨0, _⟩ => show win0_1.index t (0 : Fin 2) * 4096 + 1 * (x 0).val = (i 0).val; omega
  | ⟨1, _⟩ => show win0_1.index t (1 : Fin 2) * 256 + 1 * (x 1).val = (i 1).val; omega

/-- What point `t` writes back is block `t` of the specification's column of the two tables. -/
theorem flushed_eq (c : Dev nD) (t : Fin cfg0.N) :
    (dats m 0 c).flushed 2 t
      = ((cfg0.win 2).blk t).view.read (Elt Ideal) (Cert.RowDot.negRowDot (V m c main_arg0) (V m c main_arg1)) := by
  obtain ⟨-, -, -, -, e0, e1⟩ := block_index t
  rw [Value.flushed2]
  funext y
  show out0_2 (iblk m c 0 t) (iblk m c 1 t) y
    = Cert.RowDot.negRowDot (V m c main_arg0) (V m c main_arg1) (((cfg0.win 2).blk t).view.emb y)
  refine (out_at (iblk m c 0 t) (iblk m c 1 t) y).trans ?_
  unfold Cert.RowDot.negRowDot
  refine congrArg Neg.neg (Finset.sum_congr rfl fun k _ => ?_)
  have hrow : ((((cfg0.win 2).blk t).view.emb y) 0).val = t.val * 4096 + (y 0).val := by
    show win0_2.index t (0 : Fin 2) * 4096 + 1 * (y 0).val = _; omega
  exact congrArg₂ (· * ·)
    (block0_apply m c t (ix2 (n0 := 4096) (y 0) k) (ix2 (n0 := 131072) ((((cfg0.win 2).blk t).view.emb y) 0) k) hrow rfl)
    (block1_apply m c t (ix2 (n0 := 4096) (y 0) k) (ix2 (n0 := 131072) ((((cfg0.win 2).blk t).view.emb y) 0) k) hrow rfl)

/-- An index of the result is in point `t`'s block iff each coordinate is in the block's range on its axis. -/
theorem mem_block (t : Fin cfg0.N) (i : S131072x1.Idx) :
    i ∈ ((cfg0.win 2).blk t).view.set ↔ ∀ a : Fin 2, win0_2.index t a * S4096x1.size a ≤ (i a).val
      ∧ (i a).val < win0_2.index t a * S4096x1.size a + S4096x1.size a := by
  show i ∈ ((View.whole main_v0).slice (win0_2.rect t)).set ↔ _
  rw [View.set_slice_whole, Rect.mem_set_unit]
  exact Iff.rfl

/-- Every row `r` of the result is written back by the point `r / 4096`. -/
theorem covered (i : S131072x1.Idx) :
    ∃ t : Fin cfg0.N, (cfg0.win 2).flush t = true ∧ i ∈ ((cfg0.win 2).blk t).view.set := by
  have hN : cfg0.N = 32 := N_0
  have hi0 : (i 0).val < 131072 := (i 0).isLt
  have hi1 : (i 1).val < 1 := (i 1).isLt
  refine ⟨⟨(i 0).val / 4096, by rw [hN]; omega⟩, flush0_2 _, ?_⟩
  obtain ⟨-, -, -, -, e0, e1⟩ := block_index ⟨(i 0).val / 4096, by rw [hN]; omega⟩
  rw [mem_block]
  intro a
  match a with
  | ⟨0, _⟩ =>
    show win0_2.index ⟨(i 0).val / 4096, _⟩ (0 : Fin 2) * 4096 ≤ (i 0).val
      ∧ (i 0).val < win0_2.index ⟨(i 0).val / 4096, _⟩ (0 : Fin 2) * 4096 + 4096
    rw [e0]; show (i 0).val / 4096 * 4096 ≤ (i 0).val ∧ (i 0).val < (i 0).val / 4096 * 4096 + 4096; omega
  | ⟨1, _⟩ =>
    show win0_2.index ⟨(i 0).val / 4096, _⟩ (1 : Fin 2) * 1 ≤ (i 1).val
      ∧ (i 1).val < win0_2.index ⟨(i 0).val / 4096, _⟩ (1 : Fin 2) * 1 + 1
    rw [e1]; omega

/-- The result array after the run is the specification's column of the two argument tables. -/
theorem final (c : Dev nD) :
    (dats m 0 c).arrAt 2 cfg0.N
      = Cert.RowDot.negRowDot (m ((c : Thread nD τ).loc main_arg0)) (m ((c : Thread nD τ).loc main_arg1)) :=
  (dats m 0 c).arrAt_eq_of_cover 2
    (Cert.RowDot.negRowDot (V m c main_arg0) (V m c main_arg1)) (fun t _ => flushed_eq m c t) covered

/-- The kernel's run: every weakly fair execution ends with the result at the specification's column and the two
    tables unchanged. -/
theorem run : θ_run defs (onTc (τ := τ) (main (F := Ideal))) ⟨m, fun _ => 0, ρ⟩ fun r => ∀ c : Dev nD,
      r.2.mem ((c : Thread nD τ).loc main_v0)
        = Cert.RowDot.negRowDot (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.RowValue

end
-- ==== Proof.ReferenceRow.lean ====
/-
  The reference, read at an index. It multiplies the two tables entry by entry, sums each row over its 256 columns
  starting from zero, lays the 131072 sums out as a column, and negates. At row `r` that is `-(0 + ∑ k, q r k * d r k)`,
  which is the specification's entry.
-/
import proofs.«106942_j26946624815701_1_alg».proof.Proof.Gen.ReferenceIdeal.Read
import proofs.«106942_j26946624815701_1_alg».proof.Proof.RowDot
import Idealize.ShloMosaic.PureOps.Ideal.Laws
import Idealize.ShloMosaic.Lib.ValueIdx

noncomputable section

open scoped BigOperators

namespace Cert.ReferenceIdeal.RowValue

open Cert.ReferenceIdeal Cert.ReferenceIdeal.Gen Cert.ReferenceIdeal.Read
open Idealize.ShloMosaic Idealize.ShloMosaic.TcCoe Idealize.ShloMosaic.ValueIdx Idealize.SL.Sem

/-- The reference's result is the specification's function of the two tables. -/
theorem result_eq (x0 x1 : (⟨S131072x256, .f32⟩ : BufTy).Contents (Elt Ideal)) :
    val_main_v3 (F := Ideal) x0 x1 = Cert.RowDot.negRowDot x0 x1 := by
  funext i
  have e : ∀ k : Fin 256, idx_main_v1 (idx_main_v2 i) k = ix2 (n0 := 131072) (i 0) k := fun k =>
    funext fun a => Fin.ext (by match a with | ⟨0, _⟩ => rfl | ⟨1, _⟩ => rfl)
  rw [val_main_v3_apply, val_main_v2_apply, val_main_v1_apply]
  simp only [val_main_v0_apply, val_main_cst_apply, e, Ideal.hostNegf_def, Ideal.negf_def, Ideal.mulf_def,
    Ideal.ofBits_def, Ideal.ofBits_zero_f32, zero_add]
  rfl

end Cert.ReferenceIdeal.RowValue

end
-- ==== Proof.lean ====
/-
  The kernel computes, for two tables `q`, `d` of 131072 rows and 256 columns, the column whose entry in row `r` is
  `0 - ∑ k, q r k * d r k`, 4096 rows per grid point over 32 grid points; the reference computes
  `-(0 + ∑ k, q r k * d r k)` for all rows at once. In the extended reals both are `-(∑ k, q r k * d r k)`
  (`Cert.RowDot.negRowDot`): subtracting from zero is negation, adding to zero changes nothing, and a finite sum of
  extended reals does not depend on the order of its terms. No finiteness of the entries is used.

  The three frame claims are the programs' runs with the result forgotten; the idealization rewrote nothing, so there
  is nothing to preserve; the two idealized runs end with the same column.
-/
import proofs.«106942_j26946624815701_1_alg».proof.Defs
import proofs.«106942_j26946624815701_1_alg».proof.Proof.Gen.Kernel
import proofs.«106942_j26946624815701_1_alg».proof.Proof.Gen.Kernel.Skeleton
import proofs.«106942_j26946624815701_1_alg».proof.Proof.Gen.Kernel.Launch
import proofs.«106942_j26946624815701_1_alg».proof.Proof.Gen.Kernel.Points
import proofs.«106942_j26946624815701_1_alg».proof.Proof.Gen.Kernel.Frame
import proofs.«106942_j26946624815701_1_alg».proof.Proof.Gen.KernelIdeal
import proofs.«106942_j26946624815701_1_alg».proof.Proof.Gen.KernelIdeal.Skeleton
import proofs.«106942_j26946624815701_1_alg».proof.Proof.Gen.KernelIdeal.Launch
import proofs.«106942_j26946624815701_1_alg».proof.Proof.Gen.KernelIdeal.Points
import proofs.«106942_j26946624815701_1_alg».proof.Proof.Gen.KernelIdeal.Frame
import proofs.«106942_j26946624815701_1_alg».proof.Proof.Gen.ReferenceIdeal
import proofs.«106942_j26946624815701_1_alg».proof.Proof.Gen.Pre_finite_inputs
import proofs.«106942_j26946624815701_1_alg».proof.Proof.Gen.KernelIdeal.Value
import proofs.«106942_j26946624815701_1_alg».proof.Proof.Gen.ReferenceIdeal.Run
import proofs.«106942_j26946624815701_1_alg».proof.Proof.Gen.ReferenceIdeal.Read
import proofs.«106942_j26946624815701_1_alg».proof.Proof.RowDot
import proofs.«106942_j26946624815701_1_alg».proof.Proof.KernelArray
import proofs.«106942_j26946624815701_1_alg».proof.Proof.ReferenceRow
import Idealize.ShloMosaic.Adequacy
import Idealize.ShloMosaic.Init

noncomputable section

namespace Cert.Proof

open Idealize.ShloMosaic Idealize.SL.Sem

/-- The kernel as printed runs to the end without a fault and leaves both tables as they were. -/
theorem frame_kernel [Cert.Kernel.Facts] [Cert.Pre_finite_inputs.Facts] : Cert.frame_Kernel :=
  fun m ρ _ => Cert.Kernel.Gen.frame m ρ

/-- So does the kernel read over the extended reals. -/
theorem frame_kernelIdeal [Cert.KernelIdeal.Facts] [Cert.Pre_finite_inputs.Facts] : Cert.frame_KernelIdeal :=
  fun m ρ _ => Cert.KernelIdeal.Gen.frame m ρ

/-- The reference's run, with its result forgotten, leaves both tables as they were. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From tables that agree, both runs end with the column `r ↦ -(∑ k, q r k * d r k)` of the kernel's tables. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.RowDot.negRowDot (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RowValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
